-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x256 : Shape := ⟨3, ![128, 1024, 256]⟩
abbrev S_ : Shape := ⟨0, ![]⟩

class Facts : Prop where
  bcast_S_S128x1024x256 : S_.BroadcastsInDim S128x1024x256 (![] : Fin 0 → Fin S128x1024x256.rank)
  reducesTo_S128x1024x256_S_d0_1_2 : S128x1024x256.ReducesTo [0, 1, 2] S_
  h_S_ : 0 < S_.numel

variable [Facts]

def fn {F : FTy → Type} [FloatOps F] (main_arg0 : FVec F S128x1024x256 .f32) : IVec S_ 1 :=
  let main_v0 : FVec F S128x1024x256 .f32 := Host.absf main_arg0
  let main_cst : FVec F S_ .f32 := constant S_ .f32 0x7F800000#32
  let main_v1 : FVec F S128x1024x256 .f32 := broadcastInDim S128x1024x256 ![] bcast_S_S128x1024x256 main_cst
  let main_v2 : IVec S128x1024x256 1 := cmpf .olt main_v0 main_v1
  let main_c : IVec S_ 1 := constantI S_ 1 1#1
  let main_v3 : IVec S_ 1 := (fun x v => Host.reduce IntOp.andi x v reducesTo_S128x1024x256_S_d0_1_2 h_S_) main_v2 main_c
  main_v3
-- ==== Kernel.lean ====
abbrev S128x1024x256 : Shape := ⟨3, ![128, 1024, 256]⟩
abbrev S131072x256 : Shape := ⟨2, ![131072, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 4
  | .vmem => 4
  | .smem => 0
  | _ => 0

abbrev bufTy : (tb : Table) → Fin (tcTables nBuf tb) → BufTy
  | .hbm, ⟨0, _⟩ => ⟨S128x1024x256, .f32⟩
  | .hbm, ⟨1, _⟩ => ⟨S131072x256, .f32⟩
  | .hbm, ⟨2, _⟩ => ⟨S131072x256, .f32⟩
  | .hbm, ⟨3, _⟩ => ⟨S128x1024x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x1024x256_S131072x256 : S128x1024x256.ShapeCasts S131072x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S4096x256_S4096 : S4096x256.Reduces [1] S4096
  shapeCasts_S4096_S4096x1 : S4096.ShapeCasts S4096x1
  broadcasts_S4096x1_S4096x256 : S4096x1.Broadcasts S4096x256
  shapeCasts_S131072x256_S128x1024x256 : S131072x256.ShapeCasts S128x1024x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)

variable [Facts₀]

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x1024x256 : Shape := ⟨3, ![128, 1024, 256]⟩
abbrev S_ : Shape := ⟨0, ![]⟩
abbrev S128x1024 : Shape := ⟨2, ![128, 1024]⟩
abbrev S128x1024x1 : Shape := ⟨3, ![128, 1024, 1]⟩

abbrev nBuf : Space → Nat
  | .hbm => 6
  | .vmem => 0
  | .smem => 0
  | _ => 0

abbrev bufTy : (tb : Table) → Fin (tcTables nBuf tb) → BufTy
  | .hbm, ⟨0, _⟩ => ⟨S128x1024x256, .f32⟩
  | .hbm, ⟨1, _⟩ => ⟨S_, .f32⟩
  | .hbm, ⟨2, _⟩ => ⟨S128x1024, .f32⟩
  | .hbm, ⟨3, _⟩ => ⟨S128x1024x1, .f32⟩
  | .hbm, ⟨4, _⟩ => ⟨S128x1024x256, .f32⟩
  | .hbm, ⟨5, _⟩ => ⟨S128x1024x256, .f32⟩
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  reducesTo_S128x1024x256_S128x1024_d2 : S128x1024x256.ReducesTo [2] S128x1024
  h_S_ : 0 < S_.numel
  bcast_S128x1024_S128x1024x1_0_1 : S128x1024.BroadcastsInDim S128x1024x1 (![0, 1] : Fin 2 → Fin S128x1024x1.rank)
  bcast_S128x1024x1_S128x1024x256_0_1_2 : S128x1024x1.BroadcastsInDim S128x1024x256 (![0, 1, 2] : Fin 3 → Fin S128x1024x256.rank)

variable [Facts₀]

class Facts : Prop extends Facts₀ where

variable [Facts]
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowProduct.lean ====
/-
  Each entry of a matrix times the sum of its row.

  For an `[n, c]` array `x` of extended reals, `rowProd x` holds at `(q, d)` the product `x (q, d) · ∑ k, x (q, k)`;
  `rowProd3` is the same for an `[a, b, c]` array whose rows run along the last axis.  The entry depends on row
  `q` of `x` only, so a block of rows of `rowProd x` is `rowProd` of that block of rows; and viewing the `a · b`
  rows of an `[a, b, c]` array as one axis, taking `rowProd`, and viewing the result as `[a, b, c]` again is
  `rowProd3`.  The vector unit spells the row sum as a lane reduction into a vector, cast to a column and broadcast
  along the row.  No finiteness is needed anywhere: only the reading of each layout operation at an index.
-/
import Idealize.ShloMosaic.PureOps.Ideal.Laws
import Idealize.ShloMosaic.Lib.ValueIdx
import Idealize.ShloMosaic.Lib.ValueLayout
import Idealize.ShloMosaic.Lib.Pipeline.Value
import proofs.«171199_j83330955477234_2_alg».proof.Proof.LibRowBlocks

noncomputable section

open scoped BigOperators

namespace Cert.RowProduct

open Idealize.ShloMosaic Idealize.ShloMosaic.ValueIdx Cert.RowBlocks

/-- Each entry of an `[n, c]` array times the sum of its row. -/
def rowProd {n c : ℕ} (x : (⟨2, ![n, c]⟩ : Shape).Idx → EReal) : (⟨2, ![n, c]⟩ : Shape).Idx → EReal :=
  fun i => x i * ∑ k : Fin c, x (ix2 (i 0) k)

theorem rowProd_apply {n c : ℕ} (x : (⟨2, ![n, c]⟩ : Shape).Idx → EReal) (q : Fin n) (d : Fin c) :
    rowProd x (ix2 q d) = x (ix2 q d) * ∑ k : Fin c, x (ix2 q k) := rfl

/-- Each entry of an `[a, b, c]` array times the sum along its last axis. -/
def rowProd3 {a b c : ℕ} (x : (⟨3, ![a, b, c]⟩ : Shape).Idx → EReal) : (⟨3, ![a, b, c]⟩ : Shape).Idx → EReal :=
  fun i => x i * ∑ k : Fin c, x (ix3 (i 0) (i 1) k)

theorem rowProd3_apply {a b c : ℕ} (x : (⟨3, ![a, b, c]⟩ : Shape).Idx → EReal) (r : Fin a) (l : Fin b) (d : Fin c) :
    rowProd3 x (ix3 r l d) = x (ix3 r l d) * ∑ k : Fin c, x (ix3 r l k) := rfl

/-- ROW-LOCALITY: if a map `e` of block indices into array indices sends row `p` of the block into row `P` of the
    array, column by column, then `rowProd` of the block read through `e` is, at `(p, q)`, `rowProd` of the array at
    `(P, q)`. -/
theorem rowProd_block {N n c : ℕ} (A : (⟨2, ![N, c]⟩ : Shape).Idx → EReal)
    (e : (⟨2, ![n, c]⟩ : Shape).Idx → (⟨2, ![N, c]⟩ : Shape).Idx) (p : Fin n) (q : Fin c) (P : Fin N)
    (hrow : ∀ k : Fin c, e (ix2 p k) = ix2 P k) :
    rowProd (fun y => A (e y)) (ix2 p q) = rowProd A (ix2 P q) := by
  rw [rowProd_apply, rowProd_apply, hrow q]
  exact congrArg (A (ix2 P q) * ·) (Finset.sum_congr rfl fun k _ => by rw [hrow k])

/-- The vector unit's form: the row sums as a lane reduction from zero into a vector `[n]`, the vector cast to a
    column `[n, 1]`, the column broadcast along the row, and the product with the array itself. -/
theorem vector_form {n c : ℕ} (x : FVec Ideal ⟨2, ![n, c]⟩ .f32)
    (h1 : (⟨2, ![n, c]⟩ : Shape).ShapeCasts ⟨2, ![n, c]⟩)
    (h2 : (⟨2, ![n, c]⟩ : Shape).Reduces [1] ⟨1, ![n]⟩) (hφ : FKind.Formats .f32)
    (hacc : (0x00000000#32 : BitVec 32) = 0x00000000#32)
    (h3 : (⟨1, ![n]⟩ : Shape).ShapeCasts ⟨2, ![n, 1]⟩)
    (h4 : (⟨2, ![n, 1]⟩ : Shape).Broadcasts ⟨2, ![n, c]⟩) :
    mulf (shapeCast ⟨2, ![n, c]⟩ x h1)
        (broadcastTo ⟨2, ![n, c]⟩
          (shapeCast ⟨2, ![n, 1]⟩
            (multiReduction .add [1] ⟨1, ![n]⟩ (shapeCast ⟨2, ![n, c]⟩ x h1) 0x00000000#32 h2 hφ hacc) h3) h4)
      = rowProd x := by
  funext j
  obtain ⟨q, d, rfl⟩ : ∃ (q : Fin n) (d : Fin c), j = ix2 q d := ⟨j 0, j 1, eq_ix2 j⟩
  rw [shapeCast_self, mulf_apply, rowProd_apply]
  refine congrArg (x (ix2 q d) * ·) ?_
  refine (broadcastTo_col_apply _ h4 q d).trans ?_
  refine (shapeCast_col_apply _ h3 q (0 : Fin 1)).trans ?_
  exact rowSum_apply x h2 hφ hacc q

/-- ROWS OF GROUPS: an `[a, b, c]` array viewed as `n = a · b` rows, each entry multiplied by its row sum, viewed
    as `[a, b, c]` again, is `rowProd3` of the array: row `r · b + l` of the merged view is row `(r, l)`. -/
theorem split_rowProd_merge {a b c n : ℕ} (hn : n = a * b) (x : (⟨3, ![a, b, c]⟩ : Shape).Idx → EReal)
    (h1 : (⟨3, ![a, b, c]⟩ : Shape).ShapeCasts ⟨2, ![n, c]⟩)
    (h2 : (⟨2, ![n, c]⟩ : Shape).ShapeCasts ⟨3, ![a, b, c]⟩) :
    shapeCast ⟨3, ![a, b, c]⟩ (rowProd (shapeCast ⟨2, ![n, c]⟩ x h1)) h2 = rowProd3 x := by
  funext i
  obtain ⟨r, l, d, rfl⟩ : ∃ (r : Fin a) (l : Fin b) (d : Fin c), i = ix3 r l d := ⟨i 0, i 1, i 2, eq_ix3 i⟩
  have hq : r.val * b + l.val < n := by
    have h := Nat.mul_le_mul_right b (Nat.succ_le_of_lt r.isLt)
    rw [Nat.succ_mul] at h
    have hl := l.isLt
    omega
  rw [shapeCast_split_apply _ h2 r l d ⟨r.val * b + l.val, hq⟩ rfl, rowProd_apply, rowProd3_apply,
    shapeCast_merge_apply x h1 r l d ⟨r.val * b + l.val, hq⟩ rfl]
  exact congrArg (x (ix3 r l d) * ·)
    (Finset.sum_congr rfl fun k _ => shapeCast_merge_apply x h1 r l k ⟨r.val * b + l.val, hq⟩ rfl)

end Cert.RowProduct

end
-- ==== Proof.Reference.lean ====
/-
  The reference at the ideal values: every entry times the sum of its row.

  The reference sums the array along its last axis from zero, puts the sums back as a unit last axis, broadcasts
  them along that axis and multiplies by the array: at `(r, l, d)` it holds `x (r, l, d) · (0 + ∑ k, x (r, l, k))`,
  which is `rowProd3 x` there.
-/
import proofs.«171199_j83330955477234_2_alg».proof.Proof.Gen.ReferenceIdeal.Read
import proofs.«171199_j83330955477234_2_alg».proof.Proof.LibRowProduct

noncomputable section

open scoped BigOperators

namespace Cert.ReferenceIdeal.RowValue

open Cert.ReferenceIdeal Cert.ReferenceIdeal.Read Idealize.ShloMosaic Idealize.ShloMosaic.ValueIdx Cert.RowProduct

/-- The index the three layout stages read the array at, for the `k`-th term of the row sum at `(r, l, d)`. -/
theorem row_index (r : Fin 128) (l : Fin 1024) (d k : Fin 256) :
    idx_main_v0 (idx_main_v1 (idx_main_v2 (ix3 r l d))) k = ix3 r l k :=
  funext fun a => Fin.ext (by match a with | ⟨0, _⟩ => rfl | ⟨1, _⟩ => rfl | ⟨2, _⟩ => rfl)

/-- The reference's result is `rowProd3` of its argument. -/
theorem reference_eq (x : (⟨S128x1024x256, .f32⟩ : BufTy).Contents (Elt Ideal)) :
    val_main_v3 (F := Ideal) x = rowProd3 x := by
  funext i
  obtain ⟨r, l, d, rfl⟩ : ∃ (r : Fin 128) (l : Fin 1024) (d : Fin 256), i = ix3 r l d := ⟨i 0, i 1, i 2, eq_ix3 i⟩
  rw [val_main_v3_apply, val_main_v2_apply, val_main_v1_apply, val_main_v0_apply, val_main_cst_apply, rowProd3_apply]
  simp only [row_index]
  show x (ix3 r l d) * (Ideal.ofBits .f32 0x00000000#32 + ∑ k : Fin 256, x (ix3 r l k)) = _
  rw [Ideal.ofBits_zero_f32, zero_add]

end Cert.ReferenceIdeal.RowValue

end
-- ==== Proof.KernelValue.lean ====
/-
  The kernel at the ideal values: every entry times the sum of its row.

  The program views the `[128, 1024, 256]` argument as `131072` rows of `256`, runs the kernel over `32` blocks of
  `4096` rows, and views the result as `[128, 1024, 256]` again.  At a grid point the body multiplies each entry
  of its block by the sum of the entry's row; since that depends on the entry's own row only, what the point writes
  back is the point's block of rows of `rowProd` of the whole array.  The `32` blocks tile the rows (row `R` lies in
  block `R / 4096`), so the array after the region is `rowProd` of the array before it, and the two reshapes around
  the region turn that into `rowProd3` of the argument.
-/
import proofs.«171199_j83330955477234_2_alg».proof.Proof.Gen.KernelIdeal.Frame
import proofs.«171199_j83330955477234_2_alg».proof.Proof.LibRowProduct
import Idealize.ShloMosaic.Lib.Pipeline.Value
import Idealize.ShloMosaic.Lib.StableHlo.Run

set_option maxRecDepth 16384

noncomputable section

open scoped BigOperators

namespace Cert.KernelIdeal.RowValue

open Cert.KernelIdeal Cert.KernelIdeal.Gen Idealize.ShloMosaic Idealize.ShloMosaic.TcCoe Idealize.SL.Sem
open Idealize.ShloMosaic.Pipeline (Dat)
open Idealize.ShloMosaic.ValueIdx Cert.RowProduct

variable (m : (ℓ : Loc nD τ sig) → Buf (Elt Ideal) ℓ) (ρ : Dev nD → PrngReg)

theorem offset_zero : (![0, 0] : Fin 2 → Nat) = fun _ => 0 := funext fun a => by fin_cases a <;> rfl

/-- The body's stored value is `rowProd` of the block it loads. -/
theorem body_value (x0 : Vec Ideal S4096x256 .f32) : k0_pay1 (F := Ideal) x0 = rowProd x0 :=
  vector_form x0 _ _ _ _ _ _

/-- The two windows move together: at every grid point both sit at the same block of rows and at column block 0,
    and there are at most 32 row blocks. -/
theorem same_block : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 31 :=
  (by decide +kernel : ∀ t : Fin grid0.N, _)

/-- Every block of rows is some grid point's. -/
theorem every_block : ∀ q0 : Fin 32, ∃ t : Fin cfg0.N, win0_1.index t = ![q0.val, 0] :=
  (by decide +kernel : ∀ q0 : Fin 32, ∃ t : Fin grid0.N, win0_1.index t = ![q0.val, 0])

/-- What grid point `t` writes back is its block of rows of `rowProd` of the array the region finds. -/
theorem flushed_eq (c : Dev nD) (t : Fin cfg0.N) :
    (dats m 0 c).flushed 1 t
      = ((cfg0.win 1).blk t).view.read (Elt Ideal) (rowProd (n := 131072) (c := 256) (V m c main_v0)) := by
  show (cfg0.win 1).cut (grid0.coords t) ((dats m 0 c).after 1 t) = _
  rw [after0_1]
  unfold out0_1
  rw [View.canon_unit_zero offset_zero]
  simp only [View.ld_unit_zero (S := S4096x256) offset_zero]
  rw [body_value]
  obtain ⟨e0, e1, e2, e3⟩ := same_block t
  funext j
  obtain ⟨p, q, rfl⟩ : ∃ (p : Fin 4096) (q : Fin 256), j = ix2 p q := ⟨j 0, j 1, eq_ix2 j⟩
  show rowProd (n := 4096) (c := 256) (fun y => V m c main_v0 (((cfg0.win 0).blk t).view.emb y)) (ix2 p q)
    = rowProd (n := 131072) (c := 256) (V m c main_v0) (((cfg0.win 1).blk t).view.emb (ix2 p q))
  have hP : win0_1.index t (0 : Fin 2) * 4096 + p.val < 131072 := by have := p.isLt; omega
  have h1 : ((cfg0.win 1).blk t).view.emb (ix2 p q)
      = ix2 (⟨win0_1.index t (0 : Fin 2) * 4096 + p.val, hP⟩ : Fin 131072) q := by
    funext a; apply Fin.ext
    match a with
    | ⟨0, _⟩ => show win0_1.index t (0 : Fin 2) * 4096 + 1 * p.val = win0_1.index t (0 : Fin 2) * 4096 + p.val; omega
    | ⟨1, _⟩ => show win0_1.index t (1 : Fin 2) * 256 + 1 * q.val = q.val; omega
  rw [h1]
  refine rowProd_block (V m c main_v0) _ p q _ (fun k => ?_)
  funext a; apply Fin.ext
  match a with
  | ⟨0, _⟩ => show win0_0.index t (0 : Fin 2) * 4096 + 1 * p.val = win0_1.index t (0 : Fin 2) * 4096 + p.val; omega
  | ⟨1, _⟩ => show win0_0.index t (1 : Fin 2) * 256 + 1 * k.val = k.val; omega

/-- An index of the array is in point `t`'s block iff each coordinate is in the block's range on its axis. -/
theorem mem_blk (t : Fin cfg0.N) (i : S131072x256.Idx) :
    i ∈ ((cfg0.win 1).blk t).view.set ↔ ∀ a : Fin 2, win0_1.index t a * S4096x256.size a ≤ (i a).val
      ∧ (i a).val < win0_1.index t a * S4096x256.size a + S4096x256.size a := by
  show i ∈ ((View.whole main_v1).slice (win0_1.rect t)).set ↔ _
  rw [View.set_slice_whole, Rect.mem_set_unit]
  exact Iff.rfl

/-- Row `R` lies in the block of rows `R / 4096`: the blocks cover the array. -/
theorem cover (i : S131072x256.Idx) :
    ∃ t : Fin cfg0.N, (cfg0.win 1).flush t = true ∧ i ∈ ((cfg0.win 1).blk t).view.set := by
  have hi0 : (i 0).val < 131072 := (i 0).isLt
  have hi1 : (i 1).val < 256 := (i 1).isLt
  obtain ⟨t, ht⟩ := every_block ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 4096 ≤ (i 0).val ∧ (i 0).val < win0_1.index t (0 : Fin 2) * 4096 + 4096
    omega
  | ⟨1, _⟩ =>
    show win0_1.index t (1 : Fin 2) * 256 ≤ (i 1).val ∧ (i 1).val < win0_1.index t (1 : Fin 2) * 256 + 256
    omega

/-- The array after the region is `rowProd` of the array before it. -/
theorem final (c : Dev nD) :
    (dats m 0 c).arrAt 1 cfg0.N = rowProd (n := 131072) (c := 256) (V m c main_v0) :=
  (dats m 0 c).arrAt_eq_of_cover 1 _ (fun t _ => flushed_eq m c t) cover

/-- The array the region finds is the argument viewed as rows. -/
theorem entry_rows (c : Dev nD) :
    (V m c main_v0 : S131072x256.Idx → EReal)
      = shapeCast S131072x256 (m ((c : Thread nD τ).loc main_arg0)) Facts₀.shapeCasts_S128x1024x256_S131072x256 := by
  show StableHlo.after hostOps0 (fun b => m (c, b)) (Proc.devRef .tc main_v0) = _
  after_results
  rfl

/-- The program's result is the array after the region viewed as `[128, 1024, 256]`. -/
theorem result_view (c : Dev nD) :
    (Pipeline.afterTail₀ cfgs (dats m) 0 (V0 m) [hostOps1] c main_v2 : S128x1024x256.Idx → EReal)
      = shapeCast S128x1024x256 ((dats m 0 c).arrAt 1 cfg0.N) Facts₀.shapeCasts_S131072x256_S128x1024x256 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = (dats m 0 c).arrAt 1 cfg0.N :=
    Pipeline.withArrays_arr spec0 launch0.win.arr_inj c _ _ 1
  rw [e]
  rfl

/-- The program's result is `rowProd3` of its argument. -/
theorem result_eq (c : Dev nD) :
    (Pipeline.afterTail₀ cfgs (dats m) 0 (V0 m) [hostOps1] c main_v2 : S128x1024x256.Idx → EReal)
      = rowProd3 (a := 128) (b := 1024) (c := 256) (m ((c : Thread nD τ).loc main_arg0)) := by
  rw [result_view, final, entry_rows]
  exact split_rowProd_merge (by norm_num) _ _ _

/-- Every weakly fair execution of the program terminates with the result at `rowProd3` of the argument and the
    argument unchanged. -/
theorem run : θ_run defs (onTc (τ := τ) (main (F := Ideal))) ⟨m, fun _ => 0, ρ⟩ fun r => ∀ c : Dev nD,
      r.2.mem ((c.tc : Thread nD τ).loc main_v2)
        = rowProd3 (a := 128) (b := 1024) (c := 256) (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.RowValue

end
-- ==== Proof.lean ====
/-
  `out[b, f, j] = x[b, f, j] · ∑ i, x[b, f, i]` over f32[128, 1024, 256]: the kernel against its jnp reference, on the
  extended reals.

  The kernel views the argument as 131072 rows of 256, and at each of 32 grid points multiplies every entry of a
  block of 4096 rows by the sum of the entry's row (a lane reduction from zero, cast to a column, broadcast along the
  row); the result is viewed as [128, 1024, 256] again.  The reference sums the array along its last axis from zero,
  keeps the sums as a unit last axis, broadcasts them back and multiplies.  At the ideal values both are one function
  of the argument, `rowProd3`: each entry times the sum of its row (Proof/LibRowProduct.lean).  The entry depends on
  its own row only, so the tiling of the rows into blocks, and the two views of the rows, do not enter the value;
  the zero the sums start from is the additive unit.  No law that needs finiteness is used: the precondition is
  never opened.

  The frames of the two kernel programs are the generated ones; the reference's frame is its generated run with the
  result dropped.  The ideal pass rewrote nothing, so `preserves` is trivial.  The kernel's value is read off the
  generated frame run (Proof/KernelValue.lean), the reference's off its generated run (Proof/Reference.lean).
-/
import proofs.«171199_j83330955477234_2_alg».proof.Defs
import proofs.«171199_j83330955477234_2_alg».proof.Proof.Gen.Kernel
import proofs.«171199_j83330955477234_2_alg».proof.Proof.Gen.Kernel.Skeleton
import proofs.«171199_j83330955477234_2_alg».proof.Proof.Gen.Kernel.Launch
import proofs.«171199_j83330955477234_2_alg».proof.Proof.Gen.Kernel.Points
import proofs.«171199_j83330955477234_2_alg».proof.Proof.Gen.Kernel.Frame
import proofs.«171199_j83330955477234_2_alg».proof.Proof.Gen.KernelIdeal
import proofs.«171199_j83330955477234_2_alg».proof.Proof.Gen.KernelIdeal.Skeleton
import proofs.«171199_j83330955477234_2_alg».proof.Proof.Gen.KernelIdeal.Launch
import proofs.«171199_j83330955477234_2_alg».proof.Proof.Gen.KernelIdeal.Points
import proofs.«171199_j83330955477234_2_alg».proof.Proof.Gen.KernelIdeal.Frame
import proofs.«171199_j83330955477234_2_alg».proof.Proof.Gen.ReferenceIdeal
import proofs.«171199_j83330955477234_2_alg».proof.Proof.Gen.ReferenceIdeal.Run
import proofs.«171199_j83330955477234_2_alg».proof.Proof.Gen.ReferenceIdeal.Read
import proofs.«171199_j83330955477234_2_alg».proof.Proof.Gen.Pre_finite_inputs
import proofs.«171199_j83330955477234_2_alg».proof.Proof.Reference
import proofs.«171199_j83330955477234_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at `rowProd3` of the argument: the kernel by its frame run read as a value,
    the reference by its run, from arguments that agree. -/
theorem algebraic : Cert.algebraic_KernelIdeal_ReferenceIdeal := by
  intro m ρ m' ρ' _ hagree
  refine ⟨fun c => Cert.RowProduct.rowProd3 (a := 128) (b := 1024) (c := 256)
      (m ((c.tc : Thread Cert.KernelIdeal.nD Cert.KernelIdeal.τ).loc Cert.KernelIdeal.main_arg0)),
    Cert.KernelIdeal.RowValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RowValue.reference_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
